-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x128x128 : Shape := ⟨4, ![16, 256, 128, 128]⟩
abbrev S_ : Shape := ⟨0, ![]⟩

class Facts : Prop where
  bcast_S_S16x256x128x128 : S_.BroadcastsInDim S16x256x128x128 (![] : Fin 0 → Fin S16x256x128x128.rank)
  reducesTo_S16x256x128x128_S_d0_1_2_3 : S16x256x128x128.ReducesTo [0, 1, 2, 3] S_
  h_S_ : 0 < S_.numel

variable [Facts]

def fn {F : FTy → Type} [FloatOps F] (main_arg0 : FVec F S16x256x128x128 .f32) : IVec S_ 1 :=
  let main_v0 : FVec F S16x256x128x128 .f32 := Host.absf main_arg0
  let main_cst : FVec F S_ .f32 := constant S_ .f32 0x7F800000#32
  let main_v1 : FVec F S16x256x128x128 .f32 := broadcastInDim S16x256x128x128 ![] bcast_S_S16x256x128x128 main_cst
  let main_v2 : IVec S16x256x128x128 1 := cmpf .olt main_v0 main_v1
  let main_c : IVec S_ 1 := constantI S_ 1 1#1
  let main_v3 : IVec S_ 1 := (fun x v => Host.reduce IntOp.andi x v reducesTo_S16x256x128x128_S_d0_1_2_3 h_S_) main_v2 main_c
  main_v3
-- ==== Kernel.lean ====
abbrev S16x256x128x128 : Shape := ⟨4, ![16, 256, 128, 128]⟩
abbrev S16x64x256x256 : Shape := ⟨4, ![16, 64, 256, 256]⟩
abbrev S1x256x16x128 : Shape := ⟨4, ![1, 256, 16, 128]⟩
abbrev S1x64x32x256 : Shape := ⟨4, ![1, 64, 32, 256]⟩
abbrev S1x64x16x128 : Shape := ⟨4, ![1, 64, 16, 128]⟩
abbrev S64x16x128 : Shape := ⟨3, ![64, 16, 128]⟩
abbrev S64x16x128x1 : Shape := ⟨4, ![64, 16, 128, 1]⟩
abbrev S64x16x128x2 : Shape := ⟨4, ![64, 16, 128, 2]⟩
abbrev S64x16x256 : Shape := ⟨3, ![64, 16, 256]⟩
abbrev S64x16x1x256 : Shape := ⟨4, ![64, 16, 1, 256]⟩
abbrev S64x16x2x256 : Shape := ⟨4, ![64, 16, 2, 256]⟩
abbrev S64x32x256 : Shape := ⟨3, ![64, 32, 256]⟩

abbrev nBuf : Space → Nat
  | .hbm => 2
  | .vmem => 4
  | .smem => 0
  | _ => 0

abbrev bufTy : (tb : Table) → Fin (tcTables nBuf tb) → BufTy
  | .hbm, ⟨0, _⟩ => ⟨S16x256x128x128, .f32⟩
  | .hbm, ⟨1, _⟩ => ⟨S16x64x256x256, .f32⟩
  | .local _ .vmem, ⟨0, _⟩ => ⟨S1x256x16x128, .f32⟩
  | .local _ .vmem, ⟨1, _⟩ => ⟨S1x256x16x128, .f32⟩
  | .local _ .vmem, ⟨2, _⟩ => ⟨S1x64x32x256, .f32⟩
  | .local _ .vmem, ⟨3, _⟩ => ⟨S1x64x32x256, .f32⟩
  | _, _ => ⟨S16x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x256x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x256x16x128_S1x64x16x128_0_0_0_0 : ∀ a, (![0, 0, 0, 0] : Fin 4 → Nat) a + S1x64x16x128.size a ≤ S1x256x16x128.size a
  h_S1x64x16x128 : 0 < S1x64x16x128.numel
  shapeCasts_S1x64x16x128_S64x16x128 : S1x64x16x128.ShapeCasts S64x16x128
  inb_S1x256x16x128_S1x64x16x128_0_64_0_0 : ∀ a, (![0, 64, 0, 0] : Fin 4 → Nat) a + S1x64x16x128.size a ≤ S1x256x16x128.size a
  inb_S1x256x16x128_S1x64x16x128_0_128_0_0 : ∀ a, (![0, 128, 0, 0] : Fin 4 → Nat) a + S1x64x16x128.size a ≤ S1x256x16x128.size a
  inb_S1x256x16x128_S1x64x16x128_0_192_0_0 : ∀ a, (![0, 192, 0, 0] : Fin 4 → Nat) a + S1x64x16x128.size a ≤ S1x256x16x128.size a
  shapeCasts_S64x16x128_S64x16x128x1 : S64x16x128.ShapeCasts S64x16x128x1
  concatenates_S64x16x128x1_S64x16x128x1_S64x16x128x2_d3 : Shape.Concatenates [S64x16x128x1, S64x16x128x1] S64x16x128x2 3
  shapeCasts_S64x16x128x2_S64x16x256 : S64x16x128x2.ShapeCasts S64x16x256
  shapeCasts_S64x16x256_S64x16x1x256 : S64x16x256.ShapeCasts S64x16x1x256
  concatenates_S64x16x1x256_S64x16x1x256_S64x16x2x256_d2 : Shape.Concatenates [S64x16x1x256, S64x16x1x256] S64x16x2x256 2
  shapeCasts_S64x16x2x256_S64x32x256 : S64x16x2x256.ShapeCasts S64x32x256
  inb_S1x64x32x256_S1x64x32x256_0_0_0_0 : ∀ a, (![0, 0, 0, 0] : Fin 4 → Nat) a + S1x64x32x256.size a ≤ S1x64x32x256.size a
  h_S1x64x32x256 : 0 < S1x64x32x256.numel
  shapeCasts_S1x64x32x256_S64x32x256 : S1x64x32x256.ShapeCasts S64x32x256
  shapeCasts_S64x32x256_S1x64x32x256 : S64x32x256.ShapeCasts S1x64x32x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x16x128.size a ≤ S16x256x128x128.size a
  hwx0_0 : ∀ i : grid0.Coords, EltTy.bits .f32 = 32 ∨ (Rect.block (s := S16x256x128x128) S1x256x16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x32x256.size a ≤ S16x64x256x256.size a
  hwx0_1 : ∀ i : grid0.Coords, EltTy.bits .f32 = 32 ∨ (Rect.block (s := S16x64x256x256) S1x64x32x256.size (cc0_transform_1 i) (hinb0_1 i)).WholeWords (EltTy.packing .f32)

variable [Facts₀]

abbrev win0_0 : Pipeline.Window sig grid0 :=
  Pipeline.Window.ofSpec (Memref.whole main_arg0) S1x256x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x32x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x256x128x128 : Shape := ⟨4, ![16, 256, 128, 128]⟩
abbrev S16x64x128x128 : Shape := ⟨4, ![16, 64, 128, 128]⟩
abbrev S_ : Shape := ⟨0, ![]⟩
abbrev S16x64x128x128x1 : Shape := ⟨5, ![16, 64, 128, 128, 1]⟩
abbrev S16x64x128x128x2 : Shape := ⟨5, ![16, 64, 128, 128, 2]⟩
abbrev S16x64x128x256 : Shape := ⟨4, ![16, 64, 128, 256]⟩
abbrev S16x64x128x1x256 : Shape := ⟨5, ![16, 64, 128, 1, 256]⟩
abbrev S16x64x128x2x256 : Shape := ⟨5, ![16, 64, 128, 2, 256]⟩
abbrev S16x64x256x256 : Shape := ⟨4, ![16, 64, 256, 256]⟩

abbrev nBuf : Space → Nat
  | .hbm => 41
  | .vmem => 0
  | .smem => 0
  | _ => 0

abbrev bufTy : (tb : Table) → Fin (tcTables nBuf tb) → BufTy
  | .hbm, ⟨0, _⟩ => ⟨S16x256x128x128, .f32⟩
  | .hbm, ⟨1, _⟩ => ⟨S16x64x128x128, .f32⟩
  | .hbm, ⟨2, _⟩ => ⟨S16x64x128x128, .f32⟩
  | .hbm, ⟨3, _⟩ => ⟨S16x64x128x128, .f32⟩
  | .hbm, ⟨4, _⟩ => ⟨S16x64x128x128, .f32⟩
  | .hbm, ⟨5, _⟩ => ⟨S16x64x128x128, .f32⟩
  | .hbm, ⟨6, _⟩ => ⟨S16x64x128x128, .f32⟩
  | .hbm, ⟨7, _⟩ => ⟨S16x64x128x128, .f32⟩
  | .hbm, ⟨8, _⟩ => ⟨S_, .f32⟩
  | .hbm, ⟨9, _⟩ => ⟨S16x64x128x128, .f32⟩
  | .hbm, ⟨10, _⟩ => ⟨S16x64x128x128, .f32⟩
  | .hbm, ⟨11, _⟩ => ⟨S16x64x128x128, .f32⟩
  | .hbm, ⟨12, _⟩ => ⟨S16x64x128x128, .f32⟩
  | .hbm, ⟨13, _⟩ => ⟨S16x64x128x128, .f32⟩
  | .hbm, ⟨14, _⟩ => ⟨S_, .f32⟩
  | .hbm, ⟨15, _⟩ => ⟨S16x64x128x128, .f32⟩
  | .hbm, ⟨16, _⟩ => ⟨S16x64x128x128, .f32⟩
  | .hbm, ⟨17, _⟩ => ⟨S16x64x128x128, .f32⟩
  | .hbm, ⟨18, _⟩ => ⟨S16x64x128x128, .f32⟩
  | .hbm, ⟨19, _⟩ => ⟨S16x64x128x128, .f32⟩
  | .hbm, ⟨20, _⟩ => ⟨S_, .f32⟩
  | .hbm, ⟨21, _⟩ => ⟨S16x64x128x128, .f32⟩
  | .hbm, ⟨22, _⟩ => ⟨S16x64x128x128, .f32⟩
  | .hbm, ⟨23, _⟩ => ⟨S16x64x128x128, .f32⟩
  | .hbm, ⟨24, _⟩ => ⟨S16x64x128x128, .f32⟩
  | .hbm, ⟨25, _⟩ => ⟨S16x64x128x128, .f32⟩
  | .hbm, ⟨26, _⟩ => ⟨S_, .f32⟩
  | .hbm, ⟨27, _⟩ => ⟨S16x64x128x128, .f32⟩
  | .hbm, ⟨28, _⟩ => ⟨S16x64x128x128, .f32⟩
  | .hbm, ⟨29, _⟩ => ⟨S16x64x128x128x1, .f32⟩
  | .hbm, ⟨30, _⟩ => ⟨S16x64x128x128x1, .f32⟩
  | .hbm, ⟨31, _⟩ => ⟨S16x64x128x128x2, .f32⟩
  | .hbm, ⟨32, _⟩ => ⟨S16x64x128x256, .f32⟩
  | .hbm, ⟨33, _⟩ => ⟨S16x64x128x128x1, .f32⟩
  | .hbm, ⟨34, _⟩ => ⟨S16x64x128x128x1, .f32⟩
  | .hbm, ⟨35, _⟩ => ⟨S16x64x128x128x2, .f32⟩
  | .hbm, ⟨36, _⟩ => ⟨S16x64x128x256, .f32⟩
  | .hbm, ⟨37, _⟩ => ⟨S16x64x128x1x256, .f32⟩
  | .hbm, ⟨38, _⟩ => ⟨S16x64x128x1x256, .f32⟩
  | .hbm, ⟨39, _⟩ => ⟨S16x64x128x2x256, .f32⟩
  | .hbm, ⟨40, _⟩ => ⟨S16x64x256x256, .f32⟩
  | _, _ => ⟨S16x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst_0 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_2 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩

abbrev nD : Nat := 1
abbrev τ : Topo := Topo.v7x

variable {F : FTy → Type} [FloatOps F]

class Facts₀ : Prop where
  slices_S16x256x128x128_S16x64x128x128_0_0_0_0 : S16x256x128x128.Slices ![0, 0, 0, 0] S16x64x128x128
  slices_S16x256x128x128_S16x64x128x128_0_64_0_0 : S16x256x128x128.Slices ![0, 64, 0, 0] S16x64x128x128
  slices_S16x256x128x128_S16x64x128x128_0_128_0_0 : S16x256x128x128.Slices ![0, 128, 0, 0] S16x64x128x128
  slices_S16x256x128x128_S16x64x128x128_0_192_0_0 : S16x256x128x128.Slices ![0, 192, 0, 0] S16x64x128x128
  bcast_S_S16x64x128x128 : S_.BroadcastsInDim S16x64x128x128 (![] : Fin 0 → Fin S16x64x128x128.rank)
  bcast_S16x64x128x128_S16x64x128x128x1_0_1_2_3 : S16x64x128x128.BroadcastsInDim S16x64x128x128x1 (![0, 1, 2, 3] : Fin 4 → Fin S16x64x128x128x1.rank)
  concatenates_S16x64x128x128x1_S16x64x128x128x1_S16x64x128x128x2_d4 : Shape.Concatenates [S16x64x128x128x1, S16x64x128x128x1] S16x64x128x128x2 4
  shapeCasts_S16x64x128x128x2_S16x64x128x256 : S16x64x128x128x2.ShapeCasts S16x64x128x256
  bcast_S16x64x128x256_S16x64x128x1x256_0_1_2_4 : S16x64x128x256.BroadcastsInDim S16x64x128x1x256 (![0, 1, 2, 4] : Fin 4 → Fin S16x64x128x1x256.rank)
  concatenates_S16x64x128x1x256_S16x64x128x1x256_S16x64x128x2x256_d3 : Shape.Concatenates [S16x64x128x1x256, S16x64x128x1x256] S16x64x128x2x256 3
  shapeCasts_S16x64x128x2x256_S16x64x256x256 : S16x64x128x2x256.ShapeCasts S16x64x256x256

variable [Facts₀]

class Facts : Prop extends Facts₀ where

variable [Facts]
-- ==== Proof.Interleave.lean ====
/-
  Two vectors interleaved along an axis, read at an index.

  The kernel body builds each 2 × 2 patch with two interleavings.  First along the columns: two vectors p, q over
  [64, 16, 128] are given a trailing unit axis, joined along it into [64, 16, 128, 2] and flattened to [64, 16, 256],
  so that column C of the result is column C / 2 of p when C is even and of q when C is odd.  Then along the
  rows: two vectors u, v over [64, 16, 1, 256] are joined along the unit axis into [64, 16, 2, 256] and flattened to
  [64, 32, 256], so that row R of the result is row R / 2 of u when R is even and of v when R is odd.  Both
  are facts about row-major positions: flattening [.., n, 2] to [.., 2 n] sends (.., k, s) to 2 k + s.
-/
import Idealize.ShloMosaic.Lib.Pipeline.Value
import Idealize.ShloMosaic.Lib.ValueIdx

noncomputable section

namespace Cert.Haar.Interleave

open Idealize.ShloMosaic Idealize.ShloMosaic.ValueIdx

variable {α : Type}

abbrev B4 : Shape := ⟨4, ![1, 64, 16, 128]⟩
abbrev B3 : Shape := ⟨3, ![64, 16, 128]⟩
abbrev B3u : Shape := ⟨4, ![64, 16, 128, 1]⟩
abbrev B3p : Shape := ⟨4, ![64, 16, 128, 2]⟩
abbrev W3 : Shape := ⟨3, ![64, 16, 256]⟩
abbrev W4u : Shape := ⟨4, ![64, 16, 1, 256]⟩
abbrev W4p : Shape := ⟨4, ![64, 16, 2, 256]⟩
abbrev O3 : Shape := ⟨3, ![64, 32, 256]⟩
abbrev O4 : Shape := ⟨4, ![1, 64, 32, 256]⟩

/-- A block [1, 64, 16, 128] viewed without its leading unit axis. -/
theorem lead_unit_dropped (v : B4.Idx → α) (h : B4.ShapeCasts B3) (z : Fin 1) (ch : Fin 64) (hh : Fin 16) (w : Fin 128) :
    shapeCast B3 v h (ix3 ch hh w) = v (ix4 z ch hh w) := by
  refine shapeCast_apply v h (ix3 ch hh w) (ix4 z ch hh w) ?_
  rw [Shape.rowMajor_val_four, Shape.rowMajor_val_three]
  have hz : z.val = 0 := by omega
  show ((z.val * 64 + ch.val) * 16 + hh.val) * 128 + w.val = (ch.val * 16 + hh.val) * 128 + w.val
  omega

/-- COLUMNS INTERLEAVED: column `C` of the flattened join of `p` and `q` is column `C / 2` of `p` for even `C`, of `q`
    for odd `C`. -/
theorem cols (p q : B3.Idx → α) (hu : B3.ShapeCasts B3u) (hc : Shape.Concatenates [B3u, B3u] B3p 3)
    (hw : B3p.ShapeCasts W3) (hr : W3.ShapeCasts W4u) (ch : Fin 64) (hh : Fin 16) (z : Fin 1) (C : Fin 256) :
    shapeCast W4u (shapeCast W3 (concatenate B3p 3 [⟨B3u, shapeCast B3u p hu⟩, ⟨B3u, shapeCast B3u q hu⟩] hc) hw) hr
        (ix4 ch hh z C)
      = if C.val % 2 = 0 then p (ix3 ch hh (⟨C.val / 2, by omega⟩ : Fin 128))
        else q (ix3 ch hh (⟨C.val / 2, by omega⟩ : Fin 128)) := by
  have hz : z.val = 0 := by omega
  refine (shapeCast_apply _ hr (ix4 ch hh z C) (ix3 ch hh C) ?_).trans ?_
  · rw [Shape.rowMajor_val_three, Shape.rowMajor_val_four]
    show (ch.val * 16 + hh.val) * 256 + C.val = ((ch.val * 16 + hh.val) * 1 + z.val) * 256 + C.val
    omega
  refine (shapeCast_apply _ hw (ix3 ch hh C)
    (ix4 ch hh (⟨C.val / 2, by omega⟩ : Fin 128) (⟨C.val % 2, by omega⟩ : Fin 2)) ?_).trans ?_
  · rw [Shape.rowMajor_val_four, Shape.rowMajor_val_three]
    show ((ch.val * 16 + hh.val) * 128 + C.val / 2) * 2 + C.val % 2 = (ch.val * 16 + hh.val) * 256 + C.val
    omega
  by_cases hpar : C.val % 2 = 0
  · rw [if_pos hpar]
    refine (concatenate_pair_apply_left 3 _ _ hc _ rfl
      (ix4 ch hh (⟨C.val / 2, by omega⟩ : Fin 128) (0 : Fin 1)) ?_).trans ?_
    · intro b
      match b with
      | ⟨0, _⟩ => rfl
      | ⟨1, _⟩ => rfl
      | ⟨2, _⟩ => rfl
      | ⟨3, _⟩ => show 0 = C.val % 2; omega
    refine shapeCast_apply p hu _ (ix3 ch hh (⟨C.val / 2, by omega⟩ : Fin 128)) ?_
    rw [Shape.rowMajor_val_four, Shape.rowMajor_val_three]
    show (ch.val * 16 + hh.val) * 128 + C.val / 2 = ((ch.val * 16 + hh.val) * 128 + C.val / 2) * 1 + 0
    omega
  · rw [if_neg hpar]
    refine (concatenate_pair_apply_right 3 _ _ hc _ rfl rfl
      (ix4 ch hh (⟨C.val / 2, by omega⟩ : Fin 128) (0 : Fin 1)) ?_ ?_).trans ?_
    · intro b hb
      match b with
      | ⟨0, _⟩ => rfl
      | ⟨1, _⟩ => rfl
      | ⟨2, _⟩ => rfl
      | ⟨3, _⟩ => exact absurd rfl hb
    · show 0 + 1 = C.val % 2; omega
    refine shapeCast_apply q hu _ (ix3 ch hh (⟨C.val / 2, by omega⟩ : Fin 128)) ?_
    rw [Shape.rowMajor_val_four, Shape.rowMajor_val_three]
    show (ch.val * 16 + hh.val) * 128 + C.val / 2 = ((ch.val * 16 + hh.val) * 128 + C.val / 2) * 1 + 0
    omega

/-- ROWS INTERLEAVED: row `R` of the flattened join of `u` and `v` is row `R / 2` of `u` for even `R`, of `v` for odd `R`
    (the result carries the block's leading unit axis). -/
theorem rows (u v : W4u.Idx → α) (hc : Shape.Concatenates [W4u, W4u] W4p 2) (h1 : W4p.ShapeCasts O3)
    (h2 : O3.ShapeCasts O4) (z : Fin 1) (ch : Fin 64) (R : Fin 32) (C : Fin 256) :
    shapeCast O4 (shapeCast O3 (concatenate W4p 2 [⟨W4u, u⟩, ⟨W4u, v⟩] hc) h1) h2 (ix4 z ch R C)
      = if R.val % 2 = 0 then u (ix4 ch (⟨R.val / 2, by omega⟩ : Fin 16) (0 : Fin 1) C)
        else v (ix4 ch (⟨R.val / 2, by omega⟩ : Fin 16) (0 : Fin 1) C) := by
  have hz : z.val = 0 := by omega
  refine (shapeCast_apply _ h2 (ix4 z ch R C) (ix3 ch R C) ?_).trans ?_
  · rw [Shape.rowMajor_val_three, Shape.rowMajor_val_four]
    show (ch.val * 32 + R.val) * 256 + C.val = ((z.val * 64 + ch.val) * 32 + R.val) * 256 + C.val
    omega
  refine (shapeCast_apply _ h1 (ix3 ch R C)
    (ix4 ch (⟨R.val / 2, by omega⟩ : Fin 16) (⟨R.val % 2, by omega⟩ : Fin 2) C) ?_).trans ?_
  · rw [Shape.rowMajor_val_four, Shape.rowMajor_val_three]
    show ((ch.val * 16 + R.val / 2) * 2 + R.val % 2) * 256 + C.val = (ch.val * 32 + R.val) * 256 + C.val
    omega
  by_cases hpar : R.val % 2 = 0
  · rw [if_pos hpar]
    refine concatenate_pair_apply_left 2 _ _ hc _ rfl
      (ix4 ch (⟨R.val / 2, by omega⟩ : Fin 16) (0 : Fin 1) C) ?_
    intro b
    match b with
    | ⟨0, _⟩ => rfl
    | ⟨1, _⟩ => rfl
    | ⟨2, _⟩ => show 0 = R.val % 2; omega
    | ⟨3, _⟩ => rfl
  · rw [if_neg hpar]
    refine concatenate_pair_apply_right 2 _ _ hc _ rfl rfl
      (ix4 ch (⟨R.val / 2, by omega⟩ : Fin 16) (0 : Fin 1) C) ?_ ?_
    · intro b hb
      match b with
      | ⟨0, _⟩ => rfl
      | ⟨1, _⟩ => rfl
      | ⟨2, _⟩ => exact absurd rfl hb
      | ⟨3, _⟩ => rfl
    · show 0 + 1 = R.val % 2; omega

end Cert.Haar.Interleave

end
-- ==== Proof.HaarSpec.lean ====
/-
  The inverse Haar recombination, index by index.

  The argument is an array x[b, 4·64, h, w] whose channel axis holds four sub-bands of 64 channels each,
  a = x[:, 0:64], bb = x[:, 64:128], cc = x[:, 128:192], d = x[:, 192:256].  The result is out[b, 64, 2h, 2w]:
  every entry (h, w) of the four sub-bands becomes one 2 × 2 patch of the result,

      out[b, ch, 2h,   2w  ] = ½ (((a − bb) − cc) + d)        out[b, ch, 2h,   2w+1] = ½ (((a + bb) − cc) − d)
      out[b, ch, 2h+1, 2w  ] = ½ (((a − bb) + cc) − d)        out[b, ch, 2h+1, 2w+1] = ½ (((a + bb) + cc) + d)

  with a, bb, cc, d read at [b, ch, h, w] of their sub-band.  So the entry at row R and column C reads the sub-bands
  at (R / 2, C / 2), and which of the four combinations it is depends on the parities R % 2 and C % 2 alone.
  The operations are kept as the float operations of an arbitrary instance, in the order both programs apply
  them: the equality proved from this specification is one of layout, not of arithmetic.
-/
import Idealize.ShloMosaic.PureOps.Ideal
import Idealize.ShloMosaic.Lib.ValueIdx

noncomputable section

namespace Cert.Haar

open Idealize.ShloMosaic Idealize.ShloMosaic.ValueIdx

variable {F : FTy → Type} [FloatOps F]

/-- The scale ½, as the f32 word both programs print. -/
def half : F .f32 := FloatOps.ofBits .f32 0x3F000000#32

/-- Even row, even column: ½ (((a − bb) − cc) + d). -/
def evenEven (a bb cc d : F .f32) : F .f32 :=
  FloatOps.mulf half (FloatOps.addf (FloatOps.subf (FloatOps.subf a bb) cc) d)

/-- Even row, odd column: ½ (((a + bb) − cc) − d). -/
def evenOdd (a bb cc d : F .f32) : F .f32 :=
  FloatOps.mulf half (FloatOps.subf (FloatOps.subf (FloatOps.addf a bb) cc) d)

/-- Odd row, even column: ½ (((a − bb) + cc) − d). -/
def oddEven (a bb cc d : F .f32) : F .f32 :=
  FloatOps.mulf half (FloatOps.subf (FloatOps.addf (FloatOps.subf a bb) cc) d)

/-- Odd row, odd column: ½ (((a + bb) + cc) + d). -/
def oddOdd (a bb cc d : F .f32) : F .f32 :=
  FloatOps.mulf half (FloatOps.addf (FloatOps.addf (FloatOps.addf a bb) cc) d)

/-- The entry of a 2 × 2 patch at row parity `r` and column parity `s`. -/
def corner (r s : Nat) (a bb cc d : F .f32) : F .f32 :=
  if r = 0 then (if s = 0 then evenEven a bb cc d else evenOdd a bb cc d)
  else (if s = 0 then oddEven a bb cc d else oddOdd a bb cc d)

/-- Entry (h, w) of channel `ch` of sub-band `k`: channel 64 k + ch of the argument. -/
abbrev quad (k : Fin 4) (b : Fin 16) (ch : Fin 64) (h w : Fin 128) : (⟨4, ![16, 256, 128, 128]⟩ : Shape).Idx :=
  ix4 b (⟨64 * k.val + ch.val, by omega⟩ : Fin 256) h w

/-- The entry at row parity `r`, column parity `s` of the 2 × 2 patch computed from entry (h, w) of the four
    sub-bands. -/
def patch (x : (⟨4, ![16, 256, 128, 128]⟩ : Shape).Idx → F .f32) (b : Fin 16) (ch : Fin 64) (h w : Fin 128)
    (r s : Nat) : F .f32 :=
  corner r s (x (quad 0 b ch h w)) (x (quad 1 b ch h w)) (x (quad 2 b ch h w)) (x (quad 3 b ch h w))

/-- The recombined array, index by index: row `R`, column `C` is the (R % 2, C % 2) entry of the patch computed
    from entry (R / 2, C / 2) of the sub-bands. -/
def recombined (x : (⟨4, ![16, 256, 128, 128]⟩ : Shape).Idx → F .f32) :
    (⟨4, ![16, 64, 256, 256]⟩ : Shape).Idx → F .f32 := fun i =>
  patch x (i 0) (i 1) (⟨(i 2).val / 2, by have h : (i 2).val < 256 := (i 2).isLt; omega⟩ : Fin 128)
    (⟨(i 3).val / 2, by have h : (i 3).val < 256 := (i 3).isLt; omega⟩ : Fin 128) ((i 2).val % 2) ((i 3).val % 2)

end Cert.Haar

end
-- ==== Proof.BodyValue.lean ====
/-
  What the kernel body stores, index by index.

  The body loads the four sub-bands' strips of its input block (64 channels each, 16 rows, 128 columns), forms the
  four combinations over [64, 16, 128], interleaves the even-even with the even-odd combination along the columns
  (the even rows, [64, 16, 256]) and the odd-even with the odd-odd one (the odd rows), and interleaves those two along
  the rows into the [64, 32, 256] strip it stores.  So the stored entry at channel ch, row R, column C is the
  (R % 2, C % 2) entry of the patch computed from the loaded strips at (ch, R / 2, C / 2).
-/
import proofs.«136456_j33217277067815_1_alg».proof.Proof.Gen.KernelIdeal.Skeleton
import proofs.«136456_j33217277067815_1_alg».proof.Proof.Interleave
import proofs.«136456_j33217277067815_1_alg».proof.Proof.HaarSpec

noncomputable section

namespace Cert.KernelIdeal.BodyValue

open Cert.KernelIdeal Cert.KernelIdeal.Gen Idealize.ShloMosaic Idealize.ShloMosaic.ValueIdx Cert.Haar

variable {F : FTy → Type} [FloatOps F]
variable (v0 v2 v4 v6 : Vec F S1x64x16x128 .f32)

/-- The even rows: column `C` of row `hh` is the even-even combination of the strips at column `C / 2` for even `C`,
    the even-odd one for odd `C`. -/
theorem evenRow_at (ch : Fin 64) (hh : Fin 16) (z : Fin 1) (C : Fin 256) :
    k0_pay6 v0 v2 v4 v6 (ix4 ch hh z C)
      = if C.val % 2 = 0 then
          evenEven (v0 (ix4 (0 : Fin 1) ch hh (⟨C.val / 2, by omega⟩ : Fin 128)))
            (v2 (ix4 (0 : Fin 1) ch hh (⟨C.val / 2, by omega⟩ : Fin 128)))
            (v4 (ix4 (0 : Fin 1) ch hh (⟨C.val / 2, by omega⟩ : Fin 128)))
            (v6 (ix4 (0 : Fin 1) ch hh (⟨C.val / 2, by omega⟩ : Fin 128)))
        else
          evenOdd (v0 (ix4 (0 : Fin 1) ch hh (⟨C.val / 2, by omega⟩ : Fin 128)))
            (v2 (ix4 (0 : Fin 1) ch hh (⟨C.val / 2, by omega⟩ : Fin 128)))
            (v4 (ix4 (0 : Fin 1) ch hh (⟨C.val / 2, by omega⟩ : Fin 128)))
            (v6 (ix4 (0 : Fin 1) ch hh (⟨C.val / 2, by omega⟩ : Fin 128))) := by
  unfold k0_pay6
  refine (Interleave.cols _ _ _ _ _ _ ch hh z C).trans ?_
  unfold k0_pay2 k0_pay3 k0_pay4 k0_pay5
  by_cases hpar : C.val % 2 = 0
  · rw [if_pos hpar, if_pos hpar]
    show FloatOps.mulf _ (FloatOps.addf (FloatOps.subf (FloatOps.subf (shapeCast _ v0 _ _) (shapeCast _ v2 _ _))
      (shapeCast _ v4 _ _)) (shapeCast _ v6 _ _)) = _
    rw [Interleave.lead_unit_dropped v0 _ 0, Interleave.lead_unit_dropped v2 _ 0,
      Interleave.lead_unit_dropped v4 _ 0, Interleave.lead_unit_dropped v6 _ 0]
    rfl
  · rw [if_neg hpar, if_neg hpar]
    show FloatOps.mulf _ (FloatOps.subf (FloatOps.subf (FloatOps.addf (shapeCast _ v0 _ _) (shapeCast _ v2 _ _))
      (shapeCast _ v4 _ _)) (shapeCast _ v6 _ _)) = _
    rw [Interleave.lead_unit_dropped v0 _ 0, Interleave.lead_unit_dropped v2 _ 0,
      Interleave.lead_unit_dropped v4 _ 0, Interleave.lead_unit_dropped v6 _ 0]
    rfl

/-- The odd rows: the odd-even combination for even `C`, the odd-odd one for odd `C`. -/
theorem oddRow_at (ch : Fin 64) (hh : Fin 16) (z : Fin 1) (C : Fin 256) :
    k0_pay7 v0 v2 v4 v6 (ix4 ch hh z C)
      = if C.val % 2 = 0 then
          oddEven (v0 (ix4 (0 : Fin 1) ch hh (⟨C.val / 2, by omega⟩ : Fin 128)))
            (v2 (ix4 (0 : Fin 1) ch hh (⟨C.val / 2, by omega⟩ : Fin 128)))
            (v4 (ix4 (0 : Fin 1) ch hh (⟨C.val / 2, by omega⟩ : Fin 128)))
            (v6 (ix4 (0 : Fin 1) ch hh (⟨C.val / 2, by omega⟩ : Fin 128)))
        else
          oddOdd (v0 (ix4 (0 : Fin 1) ch hh (⟨C.val / 2, by omega⟩ : Fin 128)))
            (v2 (ix4 (0 : Fin 1) ch hh (⟨C.val / 2, by omega⟩ : Fin 128)))
            (v4 (ix4 (0 : Fin 1) ch hh (⟨C.val / 2, by omega⟩ : Fin 128)))
            (v6 (ix4 (0 : Fin 1) ch hh (⟨C.val / 2, by omega⟩ : Fin 128))) := by
  unfold k0_pay7
  refine (Interleave.cols _ _ _ _ _ _ ch hh z C).trans ?_
  unfold k0_pay2 k0_pay3 k0_pay4 k0_pay5
  by_cases hpar : C.val % 2 = 0
  · rw [if_pos hpar, if_pos hpar]
    show FloatOps.mulf _ (FloatOps.subf (FloatOps.addf (FloatOps.subf (shapeCast _ v0 _ _) (shapeCast _ v2 _ _))
      (shapeCast _ v4 _ _)) (shapeCast _ v6 _ _)) = _
    rw [Interleave.lead_unit_dropped v0 _ 0, Interleave.lead_unit_dropped v2 _ 0,
      Interleave.lead_unit_dropped v4 _ 0, Interleave.lead_unit_dropped v6 _ 0]
    rfl
  · rw [if_neg hpar, if_neg hpar]
    show FloatOps.mulf _ (FloatOps.addf (FloatOps.addf (FloatOps.addf (shapeCast _ v0 _ _) (shapeCast _ v2 _ _))
      (shapeCast _ v4 _ _)) (shapeCast _ v6 _ _)) = _
    rw [Interleave.lead_unit_dropped v0 _ 0, Interleave.lead_unit_dropped v2 _ 0,
      Interleave.lead_unit_dropped v4 _ 0, Interleave.lead_unit_dropped v6 _ 0]
    rfl

/-- THE STORED STRIP at channel `ch`, row `R`, column `C`: the (R % 2, C % 2) entry of the patch from the four loaded
    strips at (ch, R / 2, C / 2). -/
theorem stored_at (z : Fin 1) (ch : Fin 64) (R : Fin 32) (C : Fin 256) :
    k0_pay1 (k0_pay6 v0 v2 v4 v6) (k0_pay7 v0 v2 v4 v6) (ix4 z ch R C)
      = corner (R.val % 2) (C.val % 2)
          (v0 (ix4 (0 : Fin 1) ch (⟨R.val / 2, by omega⟩ : Fin 16) (⟨C.val / 2, by omega⟩ : Fin 128)))
          (v2 (ix4 (0 : Fin 1) ch (⟨R.val / 2, by omega⟩ : Fin 16) (⟨C.val / 2, by omega⟩ : Fin 128)))
          (v4 (ix4 (0 : Fin 1) ch (⟨R.val / 2, by omega⟩ : Fin 16) (⟨C.val / 2, by omega⟩ : Fin 128)))
          (v6 (ix4 (0 : Fin 1) ch (⟨R.val / 2, by omega⟩ : Fin 16) (⟨C.val / 2, by omega⟩ : Fin 128))) := by
  unfold k0_pay1
  refine (Interleave.rows _ _ _ _ _ z ch R C).trans ?_
  unfold corner
  by_cases hR : R.val % 2 = 0
  · rw [if_pos hR, if_pos hR]
    exact evenRow_at v0 v2 v4 v6 ch _ 0 C
  · rw [if_neg hR, if_neg hR]
    exact oddRow_at v0 v2 v4 v6 ch _ 0 C

end Cert.KernelIdeal.BodyValue

end
-- ==== Proof.BlockValue.lean ====
/-
  From the kernel's blocks to its result array.

  Grid point (b, s), for b < 16 and s < 8, stages block (b, 0, s, 0) of the argument — all 256 channels of rows
  16 s … 16 s + 15 of batch entry b — and writes back block (b, 0, s, 0) of the result: all 64 channels of rows
  32 s … 32 s + 31 of batch entry b.  Row R of the written strip reads row R / 2 of the staged one, so result row
  32 s + R reads argument row 16 s + R / 2 = (32 s + R) / 2, with the same parity as R: each written block is the
  block of ONE whole-array function, the recombined array, and the 128 blocks tile the result.
-/
import proofs.«136456_j33217277067815_1_alg».proof.Proof.Gen.KernelIdeal.Value
import proofs.«136456_j33217277067815_1_alg».proof.Proof.BodyValue
import Idealize.ShloMosaic.Lib.Pipeline.Value

noncomputable section

namespace Cert.KernelIdeal.BlockValue

open Cert.KernelIdeal Cert.KernelIdeal.Gen Idealize.ShloMosaic Idealize.ShloMosaic.TcCoe Idealize.SL.Sem
open Idealize.ShloMosaic.ValueIdx Cert.Haar
open Idealize.ShloMosaic.Pipeline (Dat)

variable {F : FTy → Type} [FloatOps F]

theorem hz : (![0, 0, 0, 0] : Fin 4 → Nat) = fun _ => 0 :=
  funext fun a => by fin_cases a <;> rfl

/-- The strip of sub-band `k` that the body loads from its input block: channels 64 k … 64 k + 63. -/
theorem strip_at (x0 : Vec F S1x256x16x128 .f32) (off : Fin 4 → Nat) (k : Fin 4) (hoff : off = ![0, 64 * k.val, 0, 0])
    (inb : ∀ a, off a + S1x64x16x128.size a ≤ S1x256x16x128.size a) (ch : Fin 64) (hh : Fin 16) (w : Fin 128) :
    View.ld x0 (Rect.unit (s := S1x256x16x128) off S1x64x16x128.size inb) (ix4 (0 : Fin 1) ch hh w)
      = x0 (ix4 (0 : Fin 1) (⟨64 * k.val + ch.val, by omega⟩ : Fin 256) hh w) := by
  subst hoff
  show x0 _ = x0 _
  refine congrArg x0 (funext fun a => Fin.ext ?_)
  match a with
  | ⟨0, _⟩ => show 0 + 1 * 0 = 0; omega
  | ⟨1, _⟩ => show 64 * k.val + 1 * ch.val = 64 * k.val + ch.val; omega
  | ⟨2, _⟩ => show 0 + 1 * hh.val = hh.val; omega
  | ⟨3, _⟩ => show 0 + 1 * w.val = w.val; omega

theorem strip0 (x0 : Vec F S1x256x16x128 .f32) (ch : Fin 64) (hh : Fin 16) (w : Fin 128) :
    View.ld x0 r0_0 (ix4 (0 : Fin 1) ch hh w)
      = x0 (ix4 (0 : Fin 1) (⟨64 * (0 : Fin 4).val + ch.val, by omega⟩ : Fin 256) hh w) := strip_at x0 _ 0 rfl _ ch hh w
theorem strip1 (x0 : Vec F S1x256x16x128 .f32) (ch : Fin 64) (hh : Fin 16) (w : Fin 128) :
    View.ld x0 r0_1 (ix4 (0 : Fin 1) ch hh w)
      = x0 (ix4 (0 : Fin 1) (⟨64 * (1 : Fin 4).val + ch.val, by omega⟩ : Fin 256) hh w) := strip_at x0 _ 1 rfl _ ch hh w
theorem strip2 (x0 : Vec F S1x256x16x128 .f32) (ch : Fin 64) (hh : Fin 16) (w : Fin 128) :
    View.ld x0 r0_2 (ix4 (0 : Fin 1) ch hh w)
      = x0 (ix4 (0 : Fin 1) (⟨64 * (2 : Fin 4).val + ch.val, by omega⟩ : Fin 256) hh w) := strip_at x0 _ 2 rfl _ ch hh w
theorem strip3 (x0 : Vec F S1x256x16x128 .f32) (ch : Fin 64) (hh : Fin 16) (w : Fin 128) :
    View.ld x0 r0_3 (ix4 (0 : Fin 1) ch hh w)
      = x0 (ix4 (0 : Fin 1) (⟨64 * (3 : Fin 4).val + ch.val, by omega⟩ : Fin 256) hh w) := strip_at x0 _ 3 rfl _ ch hh w

/-- WHAT THE BODY LEAVES in the output block, at channel `ch`, row `R`, column `C`: the (R % 2, C % 2) entry of the patch
    from the input block's four sub-band strips at (ch, R / 2, C / 2). -/
theorem out_at (x0 : Vec F S1x256x16x128 .f32) (z : Fin 1) (ch : Fin 64) (R : Fin 32) (C : Fin 256) :
    out0_1 x0 (ix4 z ch R C)
      = corner (R.val % 2) (C.val % 2)
          (x0 (ix4 (0 : Fin 1) (⟨64 * (0 : Fin 4).val + ch.val, by omega⟩ : Fin 256) (⟨R.val / 2, by omega⟩ : Fin 16) (⟨C.val / 2, by omega⟩ : Fin 128)))
          (x0 (ix4 (0 : Fin 1) (⟨64 * (1 : Fin 4).val + ch.val, by omega⟩ : Fin 256) (⟨R.val / 2, by omega⟩ : Fin 16) (⟨C.val / 2, by omega⟩ : Fin 128)))
          (x0 (ix4 (0 : Fin 1) (⟨64 * (2 : Fin 4).val + ch.val, by omega⟩ : Fin 256) (⟨R.val / 2, by omega⟩ : Fin 16) (⟨C.val / 2, by omega⟩ : Fin 128)))
          (x0 (ix4 (0 : Fin 1) (⟨64 * (3 : Fin 4).val + ch.val, by omega⟩ : Fin 256) (⟨R.val / 2, by omega⟩ : Fin 16) (⟨C.val / 2, by omega⟩ : Fin 128))) := by
  unfold out0_1
  rw [View.canon_unit_zero hz, BodyValue.stored_at, strip0, strip1, strip2, strip3]

/-- A BLOCK OF THE RECOMBINED ARRAY: if the input block `x0` is block (q0, 0, q2, 0) of an array `X` (sizes
    [1, 256, 16, 128]) and `i` is the index of the result that entry `j` of output block (q0, 0, q2, 0) (sizes
    [1, 64, 32, 256]) falls on, then what the body leaves at `j` is the recombined array of `X` at `i`. -/
theorem block_is_recombined (x0 : Vec F S1x256x16x128 .f32) (X : S16x256x128x128.Idx → F .f32) (q0 q2 : Nat)
    (hx : ∀ (y : S1x256x16x128.Idx) (k : S16x256x128x128.Idx), (k 0).val = q0 + (y 0).val → (k 1).val = (y 1).val →
      (k 2).val = q2 * 16 + (y 2).val → (k 3).val = (y 3).val → x0 y = X k)
    (j : S1x64x32x256.Idx) (i : S16x64x256x256.Idx) (h0 : (i 0).val = q0 + (j 0).val) (h1 : (i 1).val = (j 1).val)
    (h2 : (i 2).val = q2 * 32 + (j 2).val) (h3 : (i 3).val = (j 3).val) :
    out0_1 x0 j = recombined X i := by
  obtain ⟨z, ch, R, C, rfl⟩ : ∃ (z : Fin 1) (ch : Fin 64) (R : Fin 32) (C : Fin 256), j = ix4 z ch R C :=
    ⟨j 0, j 1, j 2, j 3, eq_ix4 j⟩
  have hz0 : z.val = 0 := by omega
  have g0 : (i 0).val = q0 + z.val := h0
  have g1 : (i 1).val = ch.val := h1
  have g2 : (i 2).val = q2 * 32 + R.val := h2
  have g3 : (i 3).val = C.val := h3
  have e2 : (i 2).val % 2 = R.val % 2 := by omega
  have e3 : (i 3).val % 2 = C.val % 2 := by omega
  rw [out_at]
  show _ = corner ((i 2).val % 2) ((i 3).val % 2) _ _ _ _
  rw [e2, e3]
  have hq : ∀ k : Fin 4,
      x0 (ix4 (0 : Fin 1) (⟨64 * k.val + ch.val, by omega⟩ : Fin 256) (⟨R.val / 2, by omega⟩ : Fin 16) (⟨C.val / 2, by omega⟩ : Fin 128))
        = X (quad k (i 0) (i 1) (⟨(i 2).val / 2, by have h : (i 2).val < 256 := (i 2).isLt; omega⟩ : Fin 128)
            (⟨(i 3).val / 2, by have h : (i 3).val < 256 := (i 3).isLt; omega⟩ : Fin 128)) := fun k =>
    hx _ _ (by show (i 0).val = q0 + 0; omega) (by show 64 * k.val + (i 1).val = 64 * k.val + ch.val; omega)
      (by show (i 2).val / 2 = q2 * 16 + R.val / 2; omega) (by show (i 3).val / 2 = C.val / 2; omega)
  rw [hq 0, hq 1, hq 2, hq 3]

variable (m : (ℓ : Loc nD τ sig) → Buf (Elt F) ℓ) (ρ : Dev nD → PrngReg)

/-- The printed index maps, decided over the 128 grid points: the input and the output window move together along the
    batch axis and the row axis, and stay at block 0 along the channels and the columns. -/
theorem idx_facts : ∀ t : Fin cfg0.N,
    win0_0.index t (0 : Fin 4) = win0_1.index t (0 : Fin 4) ∧ win0_0.index t (1 : Fin 4) = 0
    ∧ win0_0.index t (2 : Fin 4) = win0_1.index t (2 : Fin 4) ∧ win0_0.index t (3 : Fin 4) = 0
    ∧ win0_1.index t (1 : Fin 4) = 0 ∧ win0_1.index t (3 : Fin 4) = 0 :=
  (by decide +kernel : ∀ t : Fin grid0.N, _)

/-- Every block (q0, 0, q2, 0) of the result is some grid point's. -/
theorem idx_onto : ∀ (q0 : Fin 16) (q2 : Fin 8), ∃ t : Fin cfg0.N, win0_1.index t = ![q0.val, 0, q2.val, 0] :=
  (by decide +kernel : ∀ (q0 : Fin 16) (q2 : Fin 8), ∃ t : Fin grid0.N, win0_1.index t = ![q0.val, 0, q2.val, 0])

/-- WHAT POINT `t` WRITES BACK is block `t` of the recombined array of the argument. -/
theorem flushed_eq (c : Dev nD) (t : Fin cfg0.N) :
    (dats m 0 c).flushed 1 t
      = ((cfg0.win 1).blk t).view.read (Elt F) (recombined (V m c main_arg0 : S16x256x128x128.Idx → F .f32)) := by
  rw [Value.flushed1]
  obtain ⟨e0, e1, e2, e3, e4, e5⟩ := idx_facts t
  funext j
  show out0_1 (iblk m c 0 t) j
    = recombined (V m c main_arg0 : S16x256x128x128.Idx → F .f32) (((cfg0.win 1).blk t).view.emb j)
  refine block_is_recombined (iblk m c 0 t) (V m c main_arg0) (win0_1.index t (0 : Fin 4)) (win0_1.index t (2 : Fin 4))
    ?_ j _ ?_ ?_ ?_ ?_
  · intro y k h0 h1 h2 h3
    show V m c main_arg0 (((cfg0.win 0).blk t).view.emb y) = V m c main_arg0 k
    refine congrArg _ (funext fun a => Fin.ext ?_)
    match a with
    | ⟨0, _⟩ => show win0_0.index t (0 : Fin 4) * 1 + 1 * (y 0).val = (k 0).val; omega
    | ⟨1, _⟩ => show win0_0.index t (1 : Fin 4) * 256 + 1 * (y 1).val = (k 1).val; omega
    | ⟨2, _⟩ => show win0_0.index t (2 : Fin 4) * 16 + 1 * (y 2).val = (k 2).val; omega
    | ⟨3, _⟩ => show win0_0.index t (3 : Fin 4) * 128 + 1 * (y 3).val = (k 3).val; omega
  · show win0_1.index t (0 : Fin 4) * 1 + 1 * (j 0).val = win0_1.index t (0 : Fin 4) + (j 0).val; omega
  · show win0_1.index t (1 : Fin 4) * 64 + 1 * (j 1).val = (j 1).val; omega
  · show win0_1.index t (2 : Fin 4) * 32 + 1 * (j 2).val = win0_1.index t (2 : Fin 4) * 32 + (j 2).val; omega
  · show win0_1.index t (3 : Fin 4) * 256 + 1 * (j 3).val = (j 3).val; omega

/-- An index of the result is in point `t`'s block iff each coordinate is in the block's range on its axis. -/
theorem mem_blk (t : Fin cfg0.N) (i : S16x64x256x256.Idx) :
    i ∈ ((cfg0.win 1).blk t).view.set ↔ ∀ a : Fin 4, win0_1.index t a * S1x64x32x256.size a ≤ (i a).val
      ∧ (i a).val < win0_1.index t a * S1x64x32x256.size a + S1x64x32x256.size a := by
  show i ∈ ((View.whole main_v0).slice (win0_1.rect t)).set ↔ _
  rw [View.set_slice_whole, Rect.mem_set_unit]
  exact Iff.rfl

/-- THE BLOCKS TILE THE RESULT: index (b, ch, R, C) lies in the block of the point whose index is (b, 0, R / 32, 0). -/
theorem covered (i : S16x64x256x256.Idx) :
    ∃ t : Fin cfg0.N, (cfg0.win 1).flush t = true ∧ i ∈ ((cfg0.win 1).blk t).view.set := by
  have hi0 : (i 0).val < 16 := (i 0).isLt
  have hi1 : (i 1).val < 64 := (i 1).isLt
  have hi2 : (i 2).val < 256 := (i 2).isLt
  have hi3 : (i 3).val < 256 := (i 3).isLt
  obtain ⟨t, ht⟩ := idx_onto ⟨(i 0).val, hi0⟩ ⟨(i 2).val / 32, by omega⟩
  have q0 : win0_1.index t (0 : Fin 4) = (i 0).val := congrFun ht 0
  have q1 : win0_1.index t (1 : Fin 4) = 0 := congrFun ht 1
  have q2 : win0_1.index t (2 : Fin 4) = (i 2).val / 32 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 64 ≤ (i 1).val ∧ (i 1).val < win0_1.index t (1 : Fin 4) * 64 + 64; omega
  | ⟨2, _⟩ => show win0_1.index t (2 : Fin 4) * 32 ≤ (i 2).val ∧ (i 2).val < win0_1.index t (2 : Fin 4) * 32 + 32; omega
  | ⟨3, _⟩ => show win0_1.index t (3 : Fin 4) * 256 ≤ (i 3).val ∧ (i 3).val < win0_1.index t (3 : Fin 4) * 256 + 256; omega

/-- THE RESULT ARRAY after the run is the recombined array of the argument. -/
theorem final (c : Dev nD) :
    (dats m 0 c).arrAt 1 cfg0.N
      = recombined (m ((c : Thread nD τ).loc main_arg0) : S16x256x128x128.Idx → F .f32) :=
  (dats m 0 c).arrAt_eq_of_cover 1 _ (fun t _ => flushed_eq m c t) covered

/-- The kernel's run, read: the result at the recombined array of the argument, the argument unchanged. -/
theorem run : θ_run defs (onTc (τ := τ) (main (F := F))) ⟨m, fun _ => 0, ρ⟩ fun r => ∀ c : Dev nD,
      r.2.mem ((c : Thread nD τ).loc main_v0)
        = recombined (m ((c : Thread nD τ).loc main_arg0) : S16x256x128x128.Idx → F .f32)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.BlockValue

end
-- ==== Proof.RefRun.lean ====
/-
  The reference program's run, read back as one term of its argument.

  The reference is a straight line of forty host operations: four slices of the argument (the sub-bands), the four
  combinations (each three additions or subtractions and a product with a splat ½), and the two interleavings — each
  a unit axis added to two arrays, the two joined along it, and the join flattened.  Each operation is named here as a
  pure function of its operands, @main is the list of them, and the run ends with the result buffer at their
  composition `result` of the argument's launch contents, the argument unchanged.
-/
import proofs.«136456_j33217277067815_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

/-- The argument [16, 256, 128, 128]. -/
abbrev Arg (F : FTy → Type) : Type := (⟨S16x256x128x128, .f32⟩ : BufTy).Contents (Elt F)
/-- One sub-band, and each combination of the four: [16, 64, 128, 128]. -/
abbrev Band (F : FTy → Type) : Type := (⟨S16x64x128x128, .f32⟩ : BufTy).Contents (Elt F)
/-- A combination with a trailing unit axis, and two of them joined along it. -/
abbrev BandU (F : FTy → Type) : Type := (⟨S16x64x128x128x1, .f32⟩ : BufTy).Contents (Elt F)
abbrev BandP (F : FTy → Type) : Type := (⟨S16x64x128x128x2, .f32⟩ : BufTy).Contents (Elt F)
/-- The even rows or the odd rows at full width: [16, 64, 128, 256]. -/
abbrev Wide (F : FTy → Type) : Type := (⟨S16x64x128x256, .f32⟩ : BufTy).Contents (Elt F)
/-- The same with a unit axis in front of the columns, and two of them joined along it. -/
abbrev WideU (F : FTy → Type) : Type := (⟨S16x64x128x1x256, .f32⟩ : BufTy).Contents (Elt F)
abbrev WideP (F : FTy → Type) : Type := (⟨S16x64x128x2x256, .f32⟩ : BufTy).Contents (Elt F)
/-- The result [16, 64, 256, 256]. -/
abbrev Out (F : FTy → Type) : Type := (⟨S16x64x256x256, .f32⟩ : BufTy).Contents (Elt F)

variable {F : FTy → Type} [FloatOps F]

/-! ## The operations, as pure functions -/

/-- The four sub-bands: channels 0–63, 64–127, 128–191, 192–255 of the argument. -/
def bandA (x : Arg F) : Band F := extractStridedSlice S16x64x128x128 ![0, 0, 0, 0] x slices_S16x256x128x128_S16x64x128x128_0_0_0_0
def bandB (x : Arg F) : Band F := extractStridedSlice S16x64x128x128 ![0, 64, 0, 0] x slices_S16x256x128x128_S16x64x128x128_0_64_0_0
def bandC (x : Arg F) : Band F := extractStridedSlice S16x64x128x128 ![0, 128, 0, 0] x slices_S16x256x128x128_S16x64x128x128_0_128_0_0
def bandD (x : Arg F) : Band F := extractStridedSlice S16x64x128x128 ![0, 192, 0, 0] x slices_S16x256x128x128_S16x64x128x128_0_192_0_0

/-- The scalar ½ and its splat over a sub-band's shape. -/
def halfScalar : (⟨S_, .f32⟩ : BufTy).Contents (Elt F) := constant S_ .f32 0x3F000000#32
def splat (s : (⟨S_, .f32⟩ : BufTy).Contents (Elt F)) : Band F := broadcastInDim S16x64x128x128 ![] bcast_S_S16x64x128x128 s

/-- A trailing unit axis added to a combination; two such joined along it. -/
def unitCol (v : Band F) : BandU F :=
  broadcastInDim S16x64x128x128x1 ![0, 1, 2, 3] bcast_S16x64x128x128_S16x64x128x128x1_0_1_2_3 v
def joinCols (a b : BandU F) : BandP F :=
  concatenate S16x64x128x128x2 4 [⟨S16x64x128x128x1, a⟩, ⟨S16x64x128x128x1, b⟩]
    concatenates_S16x64x128x128x1_S16x64x128x128x1_S16x64x128x128x2_d4

/-- A unit axis added in front of the columns; two such joined along it. -/
def unitRow (v : Wide F) : WideU F :=
  broadcastInDim S16x64x128x1x256 ![0, 1, 2, 4] bcast_S16x64x128x256_S16x64x128x1x256_0_1_2_4 v
def joinRows (a b : WideU F) : WideP F :=
  concatenate S16x64x128x2x256 3 [⟨S16x64x128x1x256, a⟩, ⟨S16x64x128x1x256, b⟩]
    concatenates_S16x64x128x1x256_S16x64x128x1x256_S16x64x128x2x256_d3

/-! ## @main as the list of its operations -/

abbrev ops : List (HloOp τ sig (Elt F)) :=
  [ unary main_arg0 main_v0 (bandA (F := F)),
    unary main_arg0 main_v1 (bandB (F := F)),
    unary main_arg0 main_v2 (bandC (F := F)),
    unary main_arg0 main_v3 (bandD (F := F)),
    binary main_v0 main_v1 main_v4 (subf : Band F → Band F → Band F),
    binary main_v4 main_v2 main_v5 (subf : Band F → Band F → Band F),
    binary main_v5 main_v3 main_v6 (addf : Band F → Band F → Band F),
    nullary main_cst (halfScalar (F := F)),
    unary main_cst main_v7 (splat (F := F)),
    binary main_v7 main_v6 main_v8 (mulf : Band F → Band F → Band F),
    binary main_v0 main_v1 main_v9 (subf : Band F → Band F → Band F),
    binary main_v9 main_v2 main_v10 (addf : Band F → Band F → Band F),
    binary main_v10 main_v3 main_v11 (subf : Band F → Band F → Band F),
    nullary main_cst_0 (halfScalar (F := F)),
    unary main_cst_0 main_v12 (splat (F := F)),
    binary main_v12 main_v11 main_v13 (mulf : Band F → Band F → Band F),
    binary main_v0 main_v1 main_v14 (addf : Band F → Band F → Band F),
    binary main_v14 main_v2 main_v15 (subf : Band F → Band F → Band F),
    binary main_v15 main_v3 main_v16 (subf : Band F → Band F → Band F),
    nullary main_cst_1 (halfScalar (F := F)),
    unary main_cst_1 main_v17 (splat (F := F)),
    binary main_v17 main_v16 main_v18 (mulf : Band F → Band F → Band F),
    binary main_v0 main_v1 main_v19 (addf : Band F → Band F → Band F),
    binary main_v19 main_v2 main_v20 (addf : Band F → Band F → Band F),
    binary main_v20 main_v3 main_v21 (addf : Band F → Band F → Band F),
    nullary main_cst_2 (halfScalar (F := F)),
    unary main_cst_2 main_v22 (splat (F := F)),
    binary main_v22 main_v21 main_v23 (mulf : Band F → Band F → Band F),
    unary main_v8 main_v24 (unitCol (F := F)),
    unary main_v18 main_v25 (unitCol (F := F)),
    binary main_v24 main_v25 main_v26 (joinCols (F := F)),
    reshape main_v26 main_v27 rfl shapeCasts_S16x64x128x128x2_S16x64x128x256,
    unary main_v13 main_v28 (unitCol (F := F)),
    unary main_v23 main_v29 (unitCol (F := F)),
    binary main_v28 main_v29 main_v30 (joinCols (F := F)),
    reshape main_v30 main_v31 rfl shapeCasts_S16x64x128x128x2_S16x64x128x256,
    unary main_v27 main_v32 (unitRow (F := F)),
    unary main_v31 main_v33 (unitRow (F := F)),
    binary main_v32 main_v33 main_v34 (joinRows (F := F)),
    reshape main_v34 main_v35 rfl shapeCasts_S16x64x128x2x256_S16x64x256x256 ]

set_option maxRecDepth 8192 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., unary_bufs_sub .., unary_bufs_sub ..,
   binary_bufs_sub .., binary_bufs_sub .., binary_bufs_sub .., nullary_bufs_sub .., unary_bufs_sub .., binary_bufs_sub ..,
   binary_bufs_sub .., binary_bufs_sub .., binary_bufs_sub .., nullary_bufs_sub .., unary_bufs_sub .., binary_bufs_sub ..,
   binary_bufs_sub .., binary_bufs_sub .., binary_bufs_sub .., nullary_bufs_sub .., unary_bufs_sub .., binary_bufs_sub ..,
   binary_bufs_sub .., binary_bufs_sub .., binary_bufs_sub .., nullary_bufs_sub .., unary_bufs_sub .., binary_bufs_sub ..,
   unary_bufs_sub .., unary_bufs_sub .., binary_bufs_sub .., reshape_bufs_sub ..,
   unary_bufs_sub .., unary_bufs_sub .., binary_bufs_sub .., reshape_bufs_sub ..,
   unary_bufs_sub .., unary_bufs_sub .., binary_bufs_sub .., reshape_bufs_sub ..⟩

/-! ## The result as one term of the argument -/

/-- The four combinations at the sub-bands' resolution. -/
def combEE (x : Arg F) : Band F := mulf (splat halfScalar) (addf (subf (subf (bandA x) (bandB x)) (bandC x)) (bandD x))
def combOE (x : Arg F) : Band F := mulf (splat halfScalar) (subf (addf (subf (bandA x) (bandB x)) (bandC x)) (bandD x))
def combEO (x : Arg F) : Band F := mulf (splat halfScalar) (subf (subf (addf (bandA x) (bandB x)) (bandC x)) (bandD x))
def combOO (x : Arg F) : Band F := mulf (splat halfScalar) (addf (addf (addf (bandA x) (bandB x)) (bandC x)) (bandD x))

/-- A join along the trailing axis, flattened into the columns. -/
def flatCols (v : BandP F) : Wide F := shapeCast S16x64x128x256 v shapeCasts_S16x64x128x128x2_S16x64x128x256
/-- A join along the axis in front of the columns, flattened into the rows. -/
def flatRows (v : WideP F) : Out F := shapeCast S16x64x256x256 v shapeCasts_S16x64x128x2x256_S16x64x256x256

/-- The even rows and the odd rows of the result, at full width. -/
def evenRows (x : Arg F) : Wide F := flatCols (joinCols (unitCol (combEE x)) (unitCol (combEO x)))
def oddRows (x : Arg F) : Wide F := flatCols (joinCols (unitCol (combOE x)) (unitCol (combOO x)))

/-- What the reference computes. -/
def result (x : Arg F) : Out F := flatRows (joinRows (unitRow (evenRows x)) (unitRow (oddRows x)))

/-! ## The run -/

set_option maxRecDepth 8192 in
set_option maxHeartbeats 2000000 in
/-- On every device, from any memory with zero counters: every weakly fair execution of @main terminates with the result
    buffer at `result` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = result (m ((c.tc : Thread nD τ).loc main_arg0))
      ∧ r.2.mem ((c.tc : Thread nD τ).loc main_arg0) = m ((c.tc : Thread nD τ).loc main_arg0) :=
  (θ_run defs _ _).mono (fun _ h c => ⟨(h c main_v35).trans (by after_results_simp <;> rfl),
      (h c main_arg0).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result, index by index, is the recombined array.

  The reference forms the four combinations at the sub-bands' resolution [16, 64, 128, 128] and interleaves them
  twice.  Two combinations p, q are given a trailing unit axis, joined along it and flattened into [16, 64, 128, 256]:
  column C reads column C / 2 of p for even C, of q for odd C.  The two arrays u, v so obtained (the even rows and the
  odd rows) are given a unit axis in front of the columns, joined along it and flattened into [16, 64, 256, 256]: row R
  reads row R / 2 of u for even R, of v for odd R.  Read at an index, the result is the (R % 2, C % 2) entry of the
  patch computed from entry (R / 2, C / 2) of the sub-bands.
-/
import proofs.«136456_j33217277067815_1_alg».proof.Proof.RefRun
import proofs.«136456_j33217277067815_1_alg».proof.Proof.HaarSpec
import Idealize.ShloMosaic.Lib.Pipeline.Value
import Idealize.ShloMosaic.Lib.ValueIdx

noncomputable section

namespace Cert.ReferenceIdeal.RefValue

open Cert.ReferenceIdeal Cert.ReferenceIdeal.RefRun Idealize.ShloMosaic Idealize.ShloMosaic.ValueIdx Cert.Haar

variable {F : FTy → Type} [FloatOps F]

/-! ## The four slices are the four sub-bands -/

theorem bandA_at (x : Arg F) (b : Fin 16) (ch : Fin 64) (h w : Fin 128) :
    bandA x (ix4 b ch h w) = x (quad 0 b ch h w) := by
  unfold bandA
  exact extractStridedSlice_apply _ x _ (ix4 b ch h w) (quad 0 b ch h w) (fun a => match a with
    | ⟨0, _⟩ => by show b.val = 0 + b.val; omega
    | ⟨1, _⟩ => by show 64 * 0 + ch.val = 0 + ch.val; omega
    | ⟨2, _⟩ => by show h.val = 0 + h.val; omega
    | ⟨3, _⟩ => by show w.val = 0 + w.val; omega)

theorem bandB_at (x : Arg F) (b : Fin 16) (ch : Fin 64) (h w : Fin 128) :
    bandB x (ix4 b ch h w) = x (quad 1 b ch h w) := by
  unfold bandB
  exact extractStridedSlice_apply _ x _ (ix4 b ch h w) (quad 1 b ch h w) (fun a => match a with
    | ⟨0, _⟩ => by show b.val = 0 + b.val; omega
    | ⟨1, _⟩ => by show 64 * 1 + ch.val = 64 + ch.val; omega
    | ⟨2, _⟩ => by show h.val = 0 + h.val; omega
    | ⟨3, _⟩ => by show w.val = 0 + w.val; omega)

theorem bandC_at (x : Arg F) (b : Fin 16) (ch : Fin 64) (h w : Fin 128) :
    bandC x (ix4 b ch h w) = x (quad 2 b ch h w) := by
  unfold bandC
  exact extractStridedSlice_apply _ x _ (ix4 b ch h w) (quad 2 b ch h w) (fun a => match a with
    | ⟨0, _⟩ => by show b.val = 0 + b.val; omega
    | ⟨1, _⟩ => by show 64 * 2 + ch.val = 128 + ch.val; omega
    | ⟨2, _⟩ => by show h.val = 0 + h.val; omega
    | ⟨3, _⟩ => by show w.val = 0 + w.val; omega)

theorem bandD_at (x : Arg F) (b : Fin 16) (ch : Fin 64) (h w : Fin 128) :
    bandD x (ix4 b ch h w) = x (quad 3 b ch h w) := by
  unfold bandD
  exact extractStridedSlice_apply _ x _ (ix4 b ch h w) (quad 3 b ch h w) (fun a => match a with
    | ⟨0, _⟩ => by show b.val = 0 + b.val; omega
    | ⟨1, _⟩ => by show 64 * 3 + ch.val = 192 + ch.val; omega
    | ⟨2, _⟩ => by show h.val = 0 + h.val; omega
    | ⟨3, _⟩ => by show w.val = 0 + w.val; omega)

/-! ## The four combinations at the sub-bands' resolution -/

theorem combEE_at (x : Arg F) (b : Fin 16) (ch : Fin 64) (h w : Fin 128) :
    combEE x (ix4 b ch h w)
      = evenEven (x (quad 0 b ch h w)) (x (quad 1 b ch h w)) (x (quad 2 b ch h w)) (x (quad 3 b ch h w)) := by
  show FloatOps.mulf _ (FloatOps.addf (FloatOps.subf (FloatOps.subf (bandA x _) (bandB x _)) (bandC x _)) (bandD x _)) = _
  rw [bandA_at, bandB_at, bandC_at, bandD_at]
  rfl

theorem combOE_at (x : Arg F) (b : Fin 16) (ch : Fin 64) (h w : Fin 128) :
    combOE x (ix4 b ch h w)
      = oddEven (x (quad 0 b ch h w)) (x (quad 1 b ch h w)) (x (quad 2 b ch h w)) (x (quad 3 b ch h w)) := by
  show FloatOps.mulf _ (FloatOps.subf (FloatOps.addf (FloatOps.subf (bandA x _) (bandB x _)) (bandC x _)) (bandD x _)) = _
  rw [bandA_at, bandB_at, bandC_at, bandD_at]
  rfl

theorem combEO_at (x : Arg F) (b : Fin 16) (ch : Fin 64) (h w : Fin 128) :
    combEO x (ix4 b ch h w)
      = evenOdd (x (quad 0 b ch h w)) (x (quad 1 b ch h w)) (x (quad 2 b ch h w)) (x (quad 3 b ch h w)) := by
  show FloatOps.mulf _ (FloatOps.subf (FloatOps.subf (FloatOps.addf (bandA x _) (bandB x _)) (bandC x _)) (bandD x _)) = _
  rw [bandA_at, bandB_at, bandC_at, bandD_at]
  rfl

theorem combOO_at (x : Arg F) (b : Fin 16) (ch : Fin 64) (h w : Fin 128) :
    combOO x (ix4 b ch h w)
      = oddOdd (x (quad 0 b ch h w)) (x (quad 1 b ch h w)) (x (quad 2 b ch h w)) (x (quad 3 b ch h w)) := by
  show FloatOps.mulf _ (FloatOps.addf (FloatOps.addf (FloatOps.addf (bandA x _) (bandB x _)) (bandC x _)) (bandD x _)) = _
  rw [bandA_at, bandB_at, bandC_at, bandD_at]
  rfl

/-! ## Columns interleaved -/

/-- The trailing unit axis reads through. -/
theorem unitCol_at (v : Band F) (b : Fin 16) (ch : Fin 64) (h w : Fin 128) (z : Fin 1) :
    unitCol v (ix5 b ch h w z) = v (ix4 b ch h w) := by
  unfold unitCol
  exact broadcastInDim_apply _ _ v (ix5 b ch h w z) (ix4 b ch h w) (fun a => match a with
    | ⟨0, _⟩ => by show b.val = if (16 : Nat) = 1 then 0 else b.val; rw [if_neg (by decide)]
    | ⟨1, _⟩ => by show ch.val = if (64 : Nat) = 1 then 0 else ch.val; rw [if_neg (by decide)]
    | ⟨2, _⟩ => by show h.val = if (128 : Nat) = 1 then 0 else h.val; rw [if_neg (by decide)]
    | ⟨3, _⟩ => by show w.val = if (128 : Nat) = 1 then 0 else w.val; rw [if_neg (by decide)])

/-- Column `C` of the flattened join of `p` and `q` is column `C / 2` of `p` for even `C`, of `q` for odd `C`. -/
theorem cols_interleaved (p q : Band F) (b : Fin 16) (ch : Fin 64) (h : Fin 128) (C : Fin 256) :
    flatCols (joinCols (unitCol p) (unitCol q)) (ix4 b ch h C)
      = if C.val % 2 = 0 then p (ix4 b ch h (⟨C.val / 2, by omega⟩ : Fin 128))
        else q (ix4 b ch h (⟨C.val / 2, by omega⟩ : Fin 128)) := by
  unfold flatCols
  refine (shapeCast_apply _ _ (ix4 b ch h C)
    (ix5 b ch h (⟨C.val / 2, by omega⟩ : Fin 128) (⟨C.val % 2, by omega⟩ : Fin 2)) ?_).trans ?_
  · rw [Shape.rowMajor_val_five, Shape.rowMajor_val_four]
    show (((b.val * 64 + ch.val) * 128 + h.val) * 128 + C.val / 2) * 2 + C.val % 2
      = ((b.val * 64 + ch.val) * 128 + h.val) * 256 + C.val
    omega
  unfold joinCols
  by_cases hpar : C.val % 2 = 0
  · rw [if_pos hpar]
    refine (concatenate_pair_apply_left (t := S16x64x128x128x2) (s₁ := S16x64x128x128x1) (s₂ := S16x64x128x128x1) 4 _ _ _ _ rfl
      (ix5 b ch h (⟨C.val / 2, by omega⟩ : Fin 128) (0 : Fin 1)) ?_).trans (unitCol_at p b ch h _ 0)
    intro a
    match a with
    | ⟨0, _⟩ => rfl
    | ⟨1, _⟩ => rfl
    | ⟨2, _⟩ => rfl
    | ⟨3, _⟩ => rfl
    | ⟨4, _⟩ => show 0 = C.val % 2; omega
  · rw [if_neg hpar]
    refine (concatenate_pair_apply_right (t := S16x64x128x128x2) (s₁ := S16x64x128x128x1) (s₂ := S16x64x128x128x1) 4 _ _ _ _ rfl rfl
      (ix5 b ch h (⟨C.val / 2, by omega⟩ : Fin 128) (0 : Fin 1)) ?_ ?_).trans (unitCol_at q b ch h _ 0)
    · intro a ha
      match a with
      | ⟨0, _⟩ => rfl
      | ⟨1, _⟩ => rfl
      | ⟨2, _⟩ => rfl
      | ⟨3, _⟩ => rfl
      | ⟨4, _⟩ => exact absurd rfl ha
    · show 0 + 1 = C.val % 2; omega

/-! ## Rows interleaved -/

/-- The unit axis in front of the columns reads through. -/
theorem unitRow_at (v : Wide F) (b : Fin 16) (ch : Fin 64) (h : Fin 128) (z : Fin 1) (C : Fin 256) :
    unitRow v (ix5 b ch h z C) = v (ix4 b ch h C) := by
  unfold unitRow
  exact broadcastInDim_apply _ _ v (ix5 b ch h z C) (ix4 b ch h C) (fun a => match a with
    | ⟨0, _⟩ => by show b.val = if (16 : Nat) = 1 then 0 else b.val; rw [if_neg (by decide)]
    | ⟨1, _⟩ => by show ch.val = if (64 : Nat) = 1 then 0 else ch.val; rw [if_neg (by decide)]
    | ⟨2, _⟩ => by show h.val = if (128 : Nat) = 1 then 0 else h.val; rw [if_neg (by decide)]
    | ⟨3, _⟩ => by show C.val = if (256 : Nat) = 1 then 0 else C.val; rw [if_neg (by decide)])

/-- Row `R` of the flattened join of `u` and `v` is row `R / 2` of `u` for even `R`, of `v` for odd `R`. -/
theorem rows_interleaved (u v : Wide F) (b : Fin 16) (ch : Fin 64) (R C : Fin 256) :
    flatRows (joinRows (unitRow u) (unitRow v)) (ix4 b ch R C)
      = if R.val % 2 = 0 then u (ix4 b ch (⟨R.val / 2, by omega⟩ : Fin 128) C)
        else v (ix4 b ch (⟨R.val / 2, by omega⟩ : Fin 128) C) := by
  unfold flatRows
  refine (shapeCast_apply _ _ (ix4 b ch R C)
    (ix5 b ch (⟨R.val / 2, by omega⟩ : Fin 128) (⟨R.val % 2, by omega⟩ : Fin 2) C) ?_).trans ?_
  · rw [Shape.rowMajor_val_five, Shape.rowMajor_val_four]
    show (((b.val * 64 + ch.val) * 128 + R.val / 2) * 2 + R.val % 2) * 256 + C.val
      = ((b.val * 64 + ch.val) * 256 + R.val) * 256 + C.val
    omega
  unfold joinRows
  by_cases hpar : R.val % 2 = 0
  · rw [if_pos hpar]
    refine (concatenate_pair_apply_left (t := S16x64x128x2x256) (s₁ := S16x64x128x1x256) (s₂ := S16x64x128x1x256) 3 _ _ _ _ rfl
      (ix5 b ch (⟨R.val / 2, by omega⟩ : Fin 128) (0 : Fin 1) C) ?_).trans (unitRow_at u b ch _ 0 C)
    intro a
    match a with
    | ⟨0, _⟩ => rfl
    | ⟨1, _⟩ => rfl
    | ⟨2, _⟩ => rfl
    | ⟨3, _⟩ => show 0 = R.val % 2; omega
    | ⟨4, _⟩ => rfl
  · rw [if_neg hpar]
    refine (concatenate_pair_apply_right (t := S16x64x128x2x256) (s₁ := S16x64x128x1x256) (s₂ := S16x64x128x1x256) 3 _ _ _ _ rfl rfl
      (ix5 b ch (⟨R.val / 2, by omega⟩ : Fin 128) (0 : Fin 1) C) ?_ ?_).trans (unitRow_at v b ch _ 0 C)
    · intro a ha
      match a with
      | ⟨0, _⟩ => rfl
      | ⟨1, _⟩ => rfl
      | ⟨2, _⟩ => rfl
      | ⟨3, _⟩ => exact absurd rfl ha
      | ⟨4, _⟩ => rfl
    · show 0 + 1 = R.val % 2; omega

/-! ## The reference computes the recombined array -/

theorem result_eq (x : Arg F) : result x = recombined x := by
  funext i
  obtain ⟨b, ch, R, C, rfl⟩ : ∃ (b : Fin 16) (ch : Fin 64) (R C : Fin 256), i = ix4 b ch R C :=
    ⟨i 0, i 1, i 2, i 3, eq_ix4 i⟩
  unfold result
  rw [rows_interleaved]
  show _ = corner (R.val % 2) (C.val % 2) _ _ _ _
  unfold corner
  by_cases hR : R.val % 2 = 0
  · rw [if_pos hR, if_pos hR]
    unfold evenRows
    rw [cols_interleaved]
    by_cases hC : C.val % 2 = 0
    · rw [if_pos hC, if_pos hC, combEE_at]
    · rw [if_neg hC, if_neg hC, combEO_at]
  · rw [if_neg hR, if_neg hR]
    unfold oddRows
    rw [cols_interleaved]
    by_cases hC : C.val % 2 = 0
    · rw [if_pos hC, if_pos hC, combOE_at]
    · rw [if_neg hC, if_neg hC, combOO_at]

end Cert.ReferenceIdeal.RefValue

end
-- ==== Proof.lean ====
/-
  The inverse Haar wavelet recombination as one pipelined kernel against its jnp reference, equal over the extended
  reals.

  Both programs turn x[16, 4·64, 128, 128] into out[16, 64, 256, 256]: entry (h, w) of the four sub-bands
  a, bb, cc, d (64 channels each) becomes the 2 × 2 patch

      ½ (((a − bb) − cc) + d)   ½ (((a + bb) − cc) − d)
      ½ (((a − bb) + cc) − d)   ½ (((a + bb) + cc) + d)

  at rows 2h, 2h + 1 and columns 2w, 2w + 1.  They apply the same operations in the same order with the same ½, so no
  law of arithmetic is needed and the precondition is never opened: the proof is that both layouts — the
  kernel's per-block interleavings over a 16 × 8 grid of row strips, the reference's whole-array ones — put the same
  combination at the same index (Proof/HaarSpec.lean states it; Proof/BlockValue.lean and Proof/RefValue.lean prove
  each side).  The kernel's frames are the generated ones, the reference's is its run (Proof/RefRun.lean) with the
  result dropped, and the idealization rewrote nothing.
-/
import proofs.«136456_j33217277067815_1_alg».proof.Defs
import proofs.«136456_j33217277067815_1_alg».proof.Proof.Gen.Kernel
import proofs.«136456_j33217277067815_1_alg».proof.Proof.Gen.Kernel.Skeleton
import proofs.«136456_j33217277067815_1_alg».proof.Proof.Gen.Kernel.Launch
import proofs.«136456_j33217277067815_1_alg».proof.Proof.Gen.Kernel.Points
import proofs.«136456_j33217277067815_1_alg».proof.Proof.Gen.Kernel.Frame
import proofs.«136456_j33217277067815_1_alg».proof.Proof.Gen.KernelIdeal
import proofs.«136456_j33217277067815_1_alg».proof.Proof.Gen.KernelIdeal.Skeleton
import proofs.«136456_j33217277067815_1_alg».proof.Proof.Gen.KernelIdeal.Launch
import proofs.«136456_j33217277067815_1_alg».proof.Proof.Gen.KernelIdeal.Points
import proofs.«136456_j33217277067815_1_alg».proof.Proof.Gen.KernelIdeal.Frame
import proofs.«136456_j33217277067815_1_alg».proof.Proof.Gen.ReferenceIdeal
import proofs.«136456_j33217277067815_1_alg».proof.Proof.Gen.Pre_finite_inputs
import proofs.«136456_j33217277067815_1_alg».proof.Proof.Gen.KernelIdeal.Value
import proofs.«136456_j33217277067815_1_alg».proof.Proof.BlockValue
import proofs.«136456_j33217277067815_1_alg».proof.Proof.RefRun
import proofs.«136456_j33217277067815_1_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel :=
  fun m ρ _ => Cert.Kernel.Gen.frame m ρ

theorem frame_kernelIdeal : Cert.frame_KernelIdeal :=
  fun m ρ _ => Cert.KernelIdeal.Gen.frame m ρ

/-- The reference's frame is its run with the result dropped. -/
theorem frame_reference : Cert.frame_ReferenceIdeal :=
  fun m ρ _ => (θ_run Cert.ReferenceIdeal.defs _ _).mono (fun _ h c => (h c).2)
    (Cert.ReferenceIdeal.RefRun.run (F := Ideal) m ρ)

/-- Both runs end with the recombined array of the argument: the kernel's by its blocks, the reference's by
    its operations read at an index. -/
theorem algebraic : Cert.algebraic_KernelIdeal_ReferenceIdeal := by
  intro m ρ m' ρ' _ hagree
  refine ⟨_, Cert.KernelIdeal.BlockValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.result_eq _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
